-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S50000x64 .f32) (main_arg1 : FVec F S64x64 .f32) (main_arg2 : FVec F S64 .f32) (main_arg3 : FVec F S64x64 .f32) (main_arg4 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S25000x128 : Shape := ⟨2, ![25000, 128]⟩
abbrev S64x128 : Shape := ⟨2, ![64, 128]⟩
abbrev S256x128 : Shape := ⟨2, ![256, 128]⟩
abbrev S128 : Shape := ⟨1, ![128]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 39
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000x64, .bf16⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .bf16⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S25000x128, .f32⟩
  | .hbm, ⟨25, _⟩ => ⟨S25000x128, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S256x128, .f32⟩
  | .hbm, ⟨35, _⟩ => ⟨S128, .f32⟩
  | .hbm, ⟨36, _⟩ => ⟨S1x128, .f32⟩
  | .hbm, ⟨37, _⟩ => ⟨S25000x128, .f32⟩
  | .hbm, ⟨38, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S50000x64_S25000x128 : S50000x64.ShapeCasts S25000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S64x128_S64x128_S256x128_d0 : Shape.Concatenates [S64x128, S64x128, S64x128, S64x128] S256x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S25000x128.size a
  hwx0_4 : ∀ i : grid0.Coords, EltTy.bits .f32 = 32 ∨ (Rect.block (s := S25000x128) S5000x128.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S64x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S64x64, .f32⟩
  | .hbm, ⟨28, _⟩ => ⟨S50000x64, .f32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.RunKernel.lean ====
/-
  The run of `Kernel`'s @main read as a pipeline: host operations, one region over a grid of five points, one host
  reshape after it.

  The region stages, at point `t`, rows `5000·t … 5000·t+4999` of the packed aggregate and of the packed features (two
  graph nodes per row of 128 lanes), the whole stacked weight matrix (256 × 128) and the doubled bias row (1 × 128); the
  body writes one 5000 × 128 block of the packed result. The body reads every input through a rectangle that is the
  whole block and stores one rectangle that is the whole output block, so after the body the output's staging buffer
  holds the body's single pure term of the four input blocks, and every input's buffer holds its block still.
  From that: every execution terminates without a fault, the five argument arrays end as they began, the packed result
  holds, block by block, the body's term, and the last host line reshapes it.
-/
import proofs.«107670_j86973087744670_2_alg».proof.Proof.Gen.Kernel.Launch
import proofs.«107670_j86973087744670_2_alg».proof.Proof.Gen.Kernel.Skeleton
import proofs.«107670_j86973087744670_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the memory after the host operations before it. -/
abbrev entry (c : Dev nD) : Valuation τ sig (Elt F) := StableHlo.after (List.flatten [hostOps0]) (fun b => m (c, b))
/-- The same, read at one reference. -/
abbrev atEntry (c : Dev nD) (b : Ref sig .tc) : Buf (Elt F) ((c : Thread nD τ).loc b) := entry m c (Proc.devRef .tc b)

theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- @main is the host prefix, the region, and the one host line after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The line after the region touches only unscoped TensorCore buffers, -/
theorem suffix_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_allocates_nothing) op hop
/-- and writes none of the five staged arrays (it writes the reshaped result only). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host line -/

/-- No host operation before the region writes argument 0. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 0 ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c

/-- No host operation before the region writes argument 1. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 1 ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-- No host operation before the region writes argument 2. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 2 ends as launched. -/
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg2 (by exact (by decide : ∀ w, Pipeline.arrRef spec0 w ≠ main_arg2))]
  exact entry_arg2 m c

/-- No host operation before the region writes argument 3. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 3 ends as launched. -/
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg3 (by exact (by decide : ∀ w, Pipeline.arrRef spec0 w ≠ main_arg3))]
  exact entry_arg3 m c

/-- No host operation before the region writes argument 4. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 4 ends as launched. -/
theorem exit_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg4 (by exact (by decide : ∀ w, Pipeline.arrRef spec0 w ≠ main_arg4))]
  exact entry_arg4 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, whether it was fetched there or kept from the
    point before (its block index did not move then). -/
theorem staged0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether it was fetched there or kept from the
    point before (its block index did not move then). -/
theorem staged1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether it was fetched there or kept from the
    point before (its block index did not move then). -/
theorem staged2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether it was fetched there or kept from the
    point before (its block index did not move then). -/
theorem staged3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output's staging buffer -/

/-- The whole 5000 × 128 block, the whole 256 × 128 block and the whole 1 × 128 block, as the rectangles the body reads
    and writes. -/
abbrev wholeRows : Rect S5000x128 := Rect.unit (s := S5000x128) ![0, 0] S5000x128.size Facts₀.inb_S5000x128_S5000x128_0_0
abbrev wholeWeights : Rect S256x128 := Rect.unit (s := S256x128) ![0, 0] S256x128.size Facts₀.inb_S256x128_S256x128_0_0
abbrev wholeBias : Rect S1x128 := Rect.unit (s := S1x128) ![0, 0] S1x128.size Facts₀.inb_S1x128_S1x128_0_0

/-- The output block the body leaves, from the four input blocks: its one store, of the body's pure term of what it
    loaded. -/
def headBlock (a x : Vec F S5000x128 .f32) (w : Vec F S256x128 .f32) (b : Vec F S1x128 .f32) : Vec F S5000x128 .f32 :=
  View.canon [⟨wholeRows, k0_pay1 (View.ld a wholeRows) (View.ld x wholeRows) (View.ld w wholeWeights) (View.ld b wholeBias)⟩]

/-- The one store covers the buffer. -/
theorem store_covers (p0 : Vec F S5000x128 .f32) (y : S5000x128.Idx) :
    ∃ pc ∈ ([⟨wholeRows, p0⟩] : List (View.Piece (Elt F) S5000x128 .f32)), y ∈ pc.1.set :=
  View.cover_of_tiled [⟨wholeRows, p0⟩] S5000x128.size (by rfl) y

/-! ## The body's triple -/

set_option maxHeartbeats 1000000 in
/-- The body, on whole staging buffers holding `a`, `x`, `w`, `b` and an output buffer holding anything, runs to the
    end without a fault, leaves the inputs as they were and the output buffer at `headBlock a x w b`. -/
theorem body_triple (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole)
    (a x : Vec F S5000x128 .f32) (w : Vec F S256x128 .f32) (b : Vec F S1x128 .f32) (K : PUnit → sProp 𝕄) :
    iprop(owns (c : Thread nD τ) arg1 fullShare a ∗ owns (c : Thread nD τ) arg2 fullShare x ∗ owns (c : Thread nD τ) arg3 fullShare w
        ∗ owns (c : Thread nD τ) arg4 fullShare b ∗ (∃ d, owns (c : Thread nD τ) arg5 fullShare d)
        ∗ (iprop(owns (c : Thread nD τ) arg1 fullShare a ∗ owns (c : Thread nD τ) arg2 fullShare x ∗ owns (c : Thread nD τ) arg3 fullShare w
            ∗ owns (c : Thread nD τ) arg4 fullShare b ∗ owns (c : Thread nD τ) arg5 fullShare (headBlock a x w b)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- On core `c`: the arrays as the region finds them; after the body at point `t` each input's buffer at its block and the
    output's at `headBlock` of the four input blocks; nothing else is touched, nothing is owed, every share is whole. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => headBlock (blockAt m c 0 t) (blockAt m c 1 t) (blockAt m c 2 t) (blockAt m c 3 t)
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t
    = headBlock (blockAt m c 0 t) (blockAt m c 1 t) (blockAt m c 2 t) (blockAt m c 3 t) := by dsimp only [dats]

theorem before0 (c : Dev nD) (t : Fin cfg0.N) (d) : (dats m 0 c).before 0 t d = blockAt m c 0 t :=
  staged0 m (dats m 0 c) (arrays_at_entry m c 0) (after0 m c) t d
theorem before1 (c : Dev nD) (t : Fin cfg0.N) (d) : (dats m 0 c).before 1 t d = blockAt m c 1 t :=
  staged1 m (dats m 0 c) (arrays_at_entry m c 1) (after1 m c) t d
theorem before2 (c : Dev nD) (t : Fin cfg0.N) (d) : (dats m 0 c).before 2 t d = blockAt m c 2 t :=
  staged2 m (dats m 0 c) (arrays_at_entry m c 2) (after2 m c) t d
theorem before3 (c : Dev nD) (t : Fin cfg0.N) (d) : (dats m 0 c).before 3 t d = blockAt m c 3 t :=
  staged3 m (dats m 0 c) (arrays_at_entry m c 3) (after3 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; the rest passes through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main from `m` with zero counters terminates without a fault; at the end each staged
    array holds what the write-backs of the proof data leave in it, and every other unscoped buffer what the host line
    after the region leaves. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := suffix_refs) (hfresh := suffix_fresh) (hkeep := suffix_keeps)
    (hmain := main_around m Variants.none) (hA := arrays_at_entry m) (hΦ := fun _ _ => rfl)

/-- The five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c)⟩) (run_main m ρ)

end Cert.Kernel.Run

end
-- ==== Proof.RunKernelIdeal.lean ====
/-
  The run of `KernelIdeal`'s @main read as a pipeline: host operations, one region over a grid of five points, one host
  reshape after it.

  The region stages, at point `t`, rows `5000·t … 5000·t+4999` of the packed aggregate and of the packed features (two
  graph nodes per row of 128 lanes), the whole stacked weight matrix (256 × 128) and the doubled bias row (1 × 128); the
  body writes one 5000 × 128 block of the packed result. The body reads every input through a rectangle that is the
  whole block and stores one rectangle that is the whole output block, so after the body the output's staging buffer
  holds the body's single pure term of the four input blocks, and every input's buffer holds its block still.
  From that: every execution terminates without a fault, the five argument arrays end as they began, the packed result
  holds, block by block, the body's term, and the last host line reshapes it.
-/
import proofs.«107670_j86973087744670_2_alg».proof.Proof.Gen.KernelIdeal.Launch
import proofs.«107670_j86973087744670_2_alg».proof.Proof.Gen.KernelIdeal.Skeleton
import proofs.«107670_j86973087744670_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the memory after the host operations before it. -/
abbrev entry (c : Dev nD) : Valuation τ sig (Elt F) := StableHlo.after (List.flatten [hostOps0]) (fun b => m (c, b))
/-- The same, read at one reference. -/
abbrev atEntry (c : Dev nD) (b : Ref sig .tc) : Buf (Elt F) ((c : Thread nD τ).loc b) := entry m c (Proc.devRef .tc b)

theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- @main is the host prefix, the region, and the one host line after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The line after the region touches only unscoped TensorCore buffers, -/
theorem suffix_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_allocates_nothing) op hop
/-- and writes none of the five staged arrays (it writes the reshaped result only). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host line -/

/-- No host operation before the region writes argument 0. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 0 ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c

/-- No host operation before the region writes argument 1. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 1 ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-- No host operation before the region writes argument 2. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 2 ends as launched. -/
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg2 (by exact (by decide : ∀ w, Pipeline.arrRef spec0 w ≠ main_arg2))]
  exact entry_arg2 m c

/-- No host operation before the region writes argument 3. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 3 ends as launched. -/
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg3 (by exact (by decide : ∀ w, Pipeline.arrRef spec0 w ≠ main_arg3))]
  exact entry_arg3 m c

/-- No host operation before the region writes argument 4. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the line after it: argument 4 ends as launched. -/
theorem exit_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg4 (by exact (by decide : ∀ w, Pipeline.arrRef spec0 w ≠ main_arg4))]
  exact entry_arg4 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, whether it was fetched there or kept from the
    point before (its block index did not move then). -/
theorem staged0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether it was fetched there or kept from the
    point before (its block index did not move then). -/
theorem staged1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether it was fetched there or kept from the
    point before (its block index did not move then). -/
theorem staged2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether it was fetched there or kept from the
    point before (its block index did not move then). -/
theorem staged3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output's staging buffer -/

/-- The whole 5000 × 128 block, the whole 256 × 128 block and the whole 1 × 128 block, as the rectangles the body reads
    and writes. -/
abbrev wholeRows : Rect S5000x128 := Rect.unit (s := S5000x128) ![0, 0] S5000x128.size Facts₀.inb_S5000x128_S5000x128_0_0
abbrev wholeWeights : Rect S256x128 := Rect.unit (s := S256x128) ![0, 0] S256x128.size Facts₀.inb_S256x128_S256x128_0_0
abbrev wholeBias : Rect S1x128 := Rect.unit (s := S1x128) ![0, 0] S1x128.size Facts₀.inb_S1x128_S1x128_0_0

/-- The output block the body leaves, from the four input blocks: its one store, of the body's pure term of what it
    loaded. -/
def headBlock (a x : Vec F S5000x128 .f32) (w : Vec F S256x128 .f32) (b : Vec F S1x128 .f32) : Vec F S5000x128 .f32 :=
  View.canon [⟨wholeRows, k0_pay1 (View.ld a wholeRows) (View.ld x wholeRows) (View.ld w wholeWeights) (View.ld b wholeBias)⟩]

/-- The one store covers the buffer. -/
theorem store_covers (p0 : Vec F S5000x128 .f32) (y : S5000x128.Idx) :
    ∃ pc ∈ ([⟨wholeRows, p0⟩] : List (View.Piece (Elt F) S5000x128 .f32)), y ∈ pc.1.set :=
  View.cover_of_tiled [⟨wholeRows, p0⟩] S5000x128.size (by rfl) y

/-! ## The body's triple -/

set_option maxHeartbeats 1000000 in
/-- The body, on whole staging buffers holding `a`, `x`, `w`, `b` and an output buffer holding anything, runs to the
    end without a fault, leaves the inputs as they were and the output buffer at `headBlock a x w b`. -/
theorem body_triple (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole)
    (a x : Vec F S5000x128 .f32) (w : Vec F S256x128 .f32) (b : Vec F S1x128 .f32) (K : PUnit → sProp 𝕄) :
    iprop(owns (c : Thread nD τ) arg1 fullShare a ∗ owns (c : Thread nD τ) arg2 fullShare x ∗ owns (c : Thread nD τ) arg3 fullShare w
        ∗ owns (c : Thread nD τ) arg4 fullShare b ∗ (∃ d, owns (c : Thread nD τ) arg5 fullShare d)
        ∗ (iprop(owns (c : Thread nD τ) arg1 fullShare a ∗ owns (c : Thread nD τ) arg2 fullShare x ∗ owns (c : Thread nD τ) arg3 fullShare w
            ∗ owns (c : Thread nD τ) arg4 fullShare b ∗ owns (c : Thread nD τ) arg5 fullShare (headBlock a x w b)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- On core `c`: the arrays as the region finds them; after the body at point `t` each input's buffer at its block and the
    output's at `headBlock` of the four input blocks; nothing else is touched, nothing is owed, every share is whole. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => headBlock (blockAt m c 0 t) (blockAt m c 1 t) (blockAt m c 2 t) (blockAt m c 3 t)
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t
    = headBlock (blockAt m c 0 t) (blockAt m c 1 t) (blockAt m c 2 t) (blockAt m c 3 t) := by dsimp only [dats]

theorem before0 (c : Dev nD) (t : Fin cfg0.N) (d) : (dats m 0 c).before 0 t d = blockAt m c 0 t :=
  staged0 m (dats m 0 c) (arrays_at_entry m c 0) (after0 m c) t d
theorem before1 (c : Dev nD) (t : Fin cfg0.N) (d) : (dats m 0 c).before 1 t d = blockAt m c 1 t :=
  staged1 m (dats m 0 c) (arrays_at_entry m c 1) (after1 m c) t d
theorem before2 (c : Dev nD) (t : Fin cfg0.N) (d) : (dats m 0 c).before 2 t d = blockAt m c 2 t :=
  staged2 m (dats m 0 c) (arrays_at_entry m c 2) (after2 m c) t d
theorem before3 (c : Dev nD) (t : Fin cfg0.N) (d) : (dats m 0 c).before 3 t d = blockAt m c 3 t :=
  staged3 m (dats m 0 c) (arrays_at_entry m c 3) (after3 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; the rest passes through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main from `m` with zero counters terminates without a fault; at the end each staged
    array holds what the write-backs of the proof data leave in it, and every other unscoped buffer what the host line
    after the region leaves. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := suffix_refs) (hfresh := suffix_fresh) (hkeep := suffix_keeps)
    (hmain := main_around m Variants.none) (hA := arrays_at_entry m) (hΦ := fun _ _ => rfl)

/-- The five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c)⟩) (run_main m ρ)

end Cert.KernelIdeal.Run

end
-- ==== Proof.EntryArrays.lean ====
/-
  What the region's four input arrays hold when it is entered, as terms of @main's arguments.

  * the packed aggregate: the scatter-add of the gathered feature rows, two nodes per row of 128 lanes. The kernel's
    program gathers the features after a change of float format and changes back before adding; on extended reals both
    changes are the identity, so the aggregate is the very array the reference computes;
  * the packed features: the feature array, two nodes per row;
  * the stacked weights: four 64 × 128 pieces one above the other — `[W_relᵀ | 0]`, `[0 | W_relᵀ]`, `[W_rootᵀ | 0]`,
    `[0 | W_rootᵀ]`;
  * the doubled bias: `[b | b]` as one row.
-/
import proofs.«107670_j86973087744670_2_alg».proof.Proof.RunKernelIdeal
import proofs.«107670_j86973087744670_2_alg».proof.Proof.Gen.ReferenceIdeal.Read
import Idealize.ShloMosaic.Lib.StableHlo.Run
import Idealize.ShloMosaic.Lib.Pipeline.Value
import Idealize.ShloMosaic.PureOps.Ideal.Laws

set_option maxRecDepth 16384

noncomputable section

namespace Cert.KernelIdeal.Entry

open Cert.KernelIdeal Cert.KernelIdeal.Gen Cert.KernelIdeal.Run
open Idealize.ShloMosaic Idealize.ShloMosaic.TcCoe Idealize.SL.Sem Idealize.ShloMosaic.StableHlo

/-- One buffer's contents after a list of host operations, read operation by operation: the last operation that writes the
    buffer gives its contents from its operands' contents, the others leave it. -/
macro "read_results" : tactic =>
  `(tactic| repeat (first
      | rw [nullary_result] | rw [unary_result] | rw [binary_result] | rw [ternary_result] | rw [reshape_result] | rw [nary4_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- The transpose of a 64 × 64 matrix. -/
def transposed (W : S64x64.Idx → EReal) : S64x64.Idx → EReal := transpose S64x64 [1, 0] W Gen.transposes_S64x64_S64x64_1_0
/-- The 64 × 64 matrix of zeros. -/
def zeros : S64x64.Idx → EReal := broadcastInDim S64x64 ![] Gen.bcast_S_S64x64 (constant (F := Ideal) S_ .f32 0x00000000#32)
/-- Two 64 × 64 matrices side by side. -/
def beside (P Q : S64x64.Idx → EReal) : S64x128.Idx → EReal :=
  concatenate S64x128 1 [⟨S64x64, P⟩, ⟨S64x64, Q⟩] Gen.concatenates_S64x64_S64x64_S64x128_d1
/-- The stacked weights. -/
def stacked (Wrel Wroot : S64x64.Idx → EReal) : S256x128.Idx → EReal :=
  concatenate S256x128 0 [⟨S64x128, beside (transposed Wrel) zeros⟩, ⟨S64x128, beside zeros (transposed Wrel)⟩,
    ⟨S64x128, beside (transposed Wroot) zeros⟩, ⟨S64x128, beside zeros (transposed Wroot)⟩]
    Gen.concatenates_S64x128_S64x128_S64x128_S64x128_S256x128_d0
/-- The doubled bias row. -/
def doubled (b : S64.Idx → EReal) : S1x128.Idx → EReal :=
  shapeCast S1x128 (concatenate S128 0 [⟨S64, b⟩, ⟨S64, b⟩] Gen.concatenates_S64_S64_S128_d0) Gen.shapeCasts_S128_S1x128
/-- A 50000 × 64 array packed two rows per row of 128 lanes. -/
def packed (Y : S50000x64.Idx → EReal) : S25000x128.Idx → EReal := shapeCast S25000x128 Y Gen.shapeCasts_S50000x64_S25000x128

variable (m : (ℓ : Loc nD τ sig) → Buf (Elt Ideal) ℓ) (c : Dev nD)

theorem features_at_entry :
    (atEntry m c main_v17 : S25000x128.Idx → EReal) = packed (m ((c : Thread nD τ).loc main_arg0)) := by
  show StableHlo.after hostOps0 (fun b => m (c, b)) (Proc.devRef .tc main_v17) = _
  after_results
  rfl

theorem bias_at_entry :
    (atEntry m c main_v27 : S1x128.Idx → EReal) = doubled (m ((c : Thread nD τ).loc main_arg2)) := by
  show StableHlo.after hostOps0 (fun b => m (c, b)) (Proc.devRef .tc main_v27) = _
  after_results
  rfl

set_option maxHeartbeats 4000000 in
theorem weights_at_entry :
    (atEntry m c main_v25 : S256x128.Idx → EReal)
      = stacked (m ((c : Thread nD τ).loc main_arg1)) (m ((c : Thread nD τ).loc main_arg3)) := by
  show StableHlo.after hostOps0 (fun b => m (c, b)) (Proc.devRef .tc main_v25) = _
  simp only [after_cons, after_nil]
  read_results
  rfl

theorem aggregate_at_entry :
    (atEntry m c main_v16 : S25000x128.Idx → EReal)
      = packed (Cert.ReferenceIdeal.Read.val_main_v13 (F := Ideal) (m ((c : Thread nD τ).loc main_arg0)) (m ((c : Thread nD τ).loc main_arg4))) := by
  show StableHlo.after hostOps0 (fun b => m (c, b)) (Proc.devRef .tc main_v16) = _
  after_results
  rfl

end Cert.KernelIdeal.Entry

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.StackedSum.lean ====
/-
  A sum of 256 terms taken as four consecutive runs of 64.

  The kernel multiplies a row of 256 entries — 128 lanes of the packed aggregate followed by 128 lanes of the packed
  features — by one column of the stacked 256 × 128 weight matrix. Each operand is four runs of 64 entries, one per
  (array, node-of-the-pair), so the sum splits accordingly. Only associativity and commutativity of the addition are used.
-/
import Mathlib.Algebra.BigOperators.Fin

namespace Cert.StackedSum

/-- `∑ k < 256` is the sum of the four runs `k = j`, `64 + j`, `128 + j`, `192 + j` over `j < 64`. -/
theorem sum_four_runs {β : Type*} [AddCommMonoid β] (g : Fin 256 → β) :
    ∑ k : Fin 256, g k = (∑ j : Fin 64, g ⟨j.val, by omega⟩) + (∑ j : Fin 64, g ⟨64 + j.val, by omega⟩)
      + (∑ j : Fin 64, g ⟨128 + j.val, by omega⟩) + (∑ j : Fin 64, g ⟨192 + j.val, by omega⟩) := by
  have h2 : ∀ (f : Fin (128 + 128) → β), ∑ k, f k = ∑ i : Fin 128, f (Fin.castAdd 128 i) + ∑ i : Fin 128, f (Fin.natAdd 128 i) := fun f => Fin.sum_univ_add f
  have h1 : ∀ (f : Fin (64 + 64) → β), ∑ k, f k = ∑ i : Fin 64, f (Fin.castAdd 64 i) + ∑ i : Fin 64, f (Fin.natAdd 64 i) := fun f => Fin.sum_univ_add f
  have e : ∀ (a b : Fin 256), a.val = b.val → g a = g b := fun a b h => congrArg g (Fin.ext h)
  rw [show (∑ k : Fin 256, g k) = ∑ k : Fin (128 + 128), g k from rfl, h2,
    show (∑ i : Fin 128, g (Fin.castAdd 128 i)) = ∑ i : Fin (64 + 64), g (Fin.castAdd 128 i) from rfl, h1,
    show (∑ i : Fin 128, g (Fin.natAdd 128 i)) = ∑ i : Fin (64 + 64), g (Fin.natAdd 128 i) from rfl, h1, ← add_assoc]
  refine congrArg₂ (· + ·) (congrArg₂ (· + ·) (congrArg₂ (· + ·) ?_ ?_) ?_) ?_ <;>
    refine Finset.sum_congr rfl fun j _ => e _ _ ?_ <;>
    simp only [Fin.val_natAdd, Fin.val_castAdd] <;> omega

end Cert.StackedSum
-- ==== Proof.HeadBlock.lean ====
/-
  The body's pure term read at one entry.

  For input blocks `a` (5000 packed rows of the aggregate), `x` (5000 packed rows of the features), `w` (the stacked
  256 × 128 weights) and `b` (the doubled bias row), entry (r, l) of what the body stores is
  `max (∑_{k<256} [a | x](r, k) · w(k, l) + b(0, l), 0)`, the row `[a | x](r, ·)` being the 128 lanes of `a` followed by the
  128 lanes of `x`. Taken as four runs of 64 the sum is
  `∑_j a(r, j) w(j, l) + ∑_j a(r, 64+j) w(64+j, l) + ∑_j x(r, j) w(128+j, l) + ∑_j x(r, 64+j) w(192+j, l)`.
  The changes of float format around the product are the identity on extended reals.
-/
import proofs.«107670_j86973087744670_2_alg».proof.Proof.Gen.KernelIdeal.Skeleton
import proofs.«107670_j86973087744670_2_alg».proof.Proof.LibPlainDot
import proofs.«107670_j86973087744670_2_alg».proof.Proof.StackedSum
import Idealize.ShloMosaic.Lib.ValueIdx
import Idealize.ShloMosaic.Lib.Pipeline.Value
import Idealize.ShloMosaic.PureOps.Ideal.Laws

set_option maxRecDepth 16384

noncomputable section

namespace Cert.KernelIdeal.Head

open Cert.KernelIdeal Cert.KernelIdeal.Gen
open Idealize.ShloMosaic Idealize.ShloMosaic.ValueIdx

/-- Lanes `k < 128` of a row of two 128-lane blocks laid side by side are the first block's. -/
theorem lanes_fst {α : Type} (u v : S5000x128.Idx → α) (h : Shape.Concatenates [S5000x128, S5000x128] S5000x256 1)
    (r : Fin 5000) (k : Fin 256) (hk : k.val < 128) :
    concatenate S5000x256 1 [⟨S5000x128, u⟩, ⟨S5000x128, v⟩] h (ix2 r k) = u (ix2 r ⟨k.val, hk⟩) :=
  concatenate_pair_apply_left (1 : Fin S5000x256.rank) u v h (ix2 r k) rfl (ix2 r ⟨k.val, hk⟩)
    (fun b => by match b with | ⟨0, _⟩ => rfl | ⟨1, _⟩ => rfl)

/-- Lanes `128 ≤ k` are the second block's, 128 lanes back. -/
theorem lanes_snd {α : Type} (u v : S5000x128.Idx → α) (h : Shape.Concatenates [S5000x128, S5000x128] S5000x256 1)
    (r : Fin 5000) (k : Fin 256) (hk : 128 ≤ k.val) :
    concatenate S5000x256 1 [⟨S5000x128, u⟩, ⟨S5000x128, v⟩] h (ix2 r k) = v (ix2 r ⟨k.val - 128, by have := k.isLt; omega⟩) :=
  concatenate_pair_apply_right (1 : Fin S5000x256.rank) u v h (ix2 r k) rfl rfl (ix2 r ⟨k.val - 128, by have := k.isLt; omega⟩)
    (fun b hb => by match b with | ⟨0, _⟩ => rfl | ⟨1, _⟩ => exact absurd rfl hb)
    (by show (k.val - 128) + 128 = k.val; omega)

/-- The doubled bias row broadcast down the 5000 rows, at (r, l): the row's lane `l`. -/
theorem bias_rows {α : Type} (b : S1x128.Idx → α) (h : S1x128.Broadcasts S5000x128) (r : Fin 5000) (l : Fin 128) :
    broadcastTo S5000x128 b h (ix2 r l) = b (ix2 0 l) :=
  broadcastTo_apply b h (ix2 r l) (ix2 0 l) (fun a => by match a with | ⟨0, _⟩ => rfl | ⟨1, _⟩ => rfl)

theorem pay_apply (a x : Vec Ideal S5000x128 .f32) (w : Vec Ideal S256x128 .f32) (b : Vec Ideal S1x128 .f32) (r : Fin 5000) (l : Fin 128) :
    k0_pay1 (F := Ideal) a x w b (ix2 r l)
      = max ((∑ j : Fin 64, a (ix2 r ⟨j.val, by omega⟩) * w (ix2 ⟨j.val, by omega⟩ l))
            + (∑ j : Fin 64, a (ix2 r ⟨64 + j.val, by omega⟩) * w (ix2 ⟨64 + j.val, by omega⟩ l))
            + (∑ j : Fin 64, x (ix2 r ⟨j.val, by omega⟩) * w (ix2 ⟨128 + j.val, by omega⟩ l))
            + (∑ j : Fin 64, x (ix2 r ⟨64 + j.val, by omega⟩) * w (ix2 ⟨192 + j.val, by omega⟩ l))
            + b (ix2 0 l)) (Ideal.ofBits .f32 0x00000000#32) := by
  unfold k0_pay1
  rw [maximumf_apply, addf_apply, broadcast_apply, bias_rows, shapeCast_self]
  rw [Cert.PlainDot.matmul_apply _ ⟨rfl, rfl, rfl, rfl, rfl, rfl⟩]
  rw [Cert.StackedSum.sum_four_runs]
  simp only [shapeCast_self]
  refine congrArg₂ max (congrArg₂ (· + ·) (congrArg₂ (· + ·) (congrArg₂ (· + ·) (congrArg₂ (· + ·) ?_ ?_) ?_) ?_) rfl) rfl
  all_goals refine Finset.sum_congr rfl fun j _ => congrArg₂ (· * ·) ?_ rfl
  · exact lanes_fst _ _ _ r ⟨j.val, by omega⟩ (by show j.val < 128; omega)
  · exact lanes_fst _ _ _ r ⟨64 + j.val, by omega⟩ (by show 64 + j.val < 128; omega)
  · refine (lanes_snd _ _ _ r ⟨128 + j.val, by omega⟩ (by show 128 ≤ 128 + j.val; omega)).trans ?_
    exact congrArg x (congrArg (ix2 r) (Fin.ext (by show 128 + j.val - 128 = j.val; omega)))
  · refine (lanes_snd _ _ _ r ⟨192 + j.val, by omega⟩ (by show 128 ≤ 192 + j.val; omega)).trans ?_
    exact congrArg x (congrArg (ix2 r) (Fin.ext (by show 192 + j.val - 128 = 64 + j.val; omega)))

end Cert.KernelIdeal.Head

end
-- ==== Proof.PackedHead.lean ====
/-
  The packed head: entry (p, l) of the kernel's packed result as a function of the packed aggregate `A`, the packed
  features `X`, the stacked weights `W` and the doubled bias `B`:
  `max (∑_j A(p, j) W(j, l) + ∑_j A(p, 64+j) W(64+j, l) + ∑_j X(p, j) W(128+j, l) + ∑_j X(p, 64+j) W(192+j, l) + B(0, l), 0)`.
-/
import proofs.«107670_j86973087744670_2_alg».proof.Proof.Gen.KernelIdeal
import Idealize.ShloMosaic.Lib.ValueIdx
import Idealize.ShloMosaic.PureOps.Ideal.Laws

noncomputable section

namespace Cert.KernelIdeal.Packed

open Cert.KernelIdeal
open Idealize.ShloMosaic Idealize.ShloMosaic.ValueIdx

/-- Entry (p, l) of the packed result. -/
def packedAt (A X : S25000x128.Idx → EReal) (W : S256x128.Idx → EReal) (B : S1x128.Idx → EReal) (p : Fin 25000) (l : Fin 128) : EReal :=
  max ((∑ j : Fin 64, A (ix2 p ⟨j.val, by omega⟩) * W (ix2 ⟨j.val, by omega⟩ l))
      + (∑ j : Fin 64, A (ix2 p ⟨64 + j.val, by omega⟩) * W (ix2 ⟨64 + j.val, by omega⟩ l))
      + (∑ j : Fin 64, X (ix2 p ⟨j.val, by omega⟩) * W (ix2 ⟨128 + j.val, by omega⟩ l))
      + (∑ j : Fin 64, X (ix2 p ⟨64 + j.val, by omega⟩) * W (ix2 ⟨192 + j.val, by omega⟩ l))
      + B (ix2 0 l)) (Ideal.ofBits .f32 0x00000000#32)

/-- The packed result as an array. -/
def packedHead (A X : S25000x128.Idx → EReal) (W : S256x128.Idx → EReal) (B : S1x128.Idx → EReal) : S25000x128.Idx → EReal :=
  fun i => packedAt A X W B ⟨(i 0).val, (i 0).isLt⟩ ⟨(i 1).val, (i 1).isLt⟩

end Cert.KernelIdeal.Packed

end
-- ==== Proof.PackedResult.lean ====
/-
  The packed result array after the run, as one function of the region's four input arrays.

  Entry (p, l) of the packed result is
  `max (∑_j A(p, j) W(j, l) + ∑_j A(p, 64+j) W(64+j, l) + ∑_j X(p, j) W(128+j, l) + ∑_j X(p, 64+j) W(192+j, l) + B(0, l), 0)`
  for the packed aggregate `A`, the packed features `X`, the stacked weights `W` and the doubled bias `B`.
  Grid point `t` stages rows `5000·t … 5000·t + 4999` of `A` and `X` and all of `W` and `B`, and writes back rows
  `5000·t … 5000·t + 4999` of the result: its block is the restriction of that one function, and the five blocks tile
  the 25000 rows. The host line after the region reshapes the packed result to 50000 × 64.
-/
import proofs.«107670_j86973087744670_2_alg».proof.Proof.RunKernelIdeal
import proofs.«107670_j86973087744670_2_alg».proof.Proof.HeadBlock
import proofs.«107670_j86973087744670_2_alg».proof.Proof.PackedHead
import Idealize.ShloMosaic.Lib.StableHlo.Run
import Idealize.ShloMosaic.Lib.Pipeline.Value
import Idealize.ShloMosaic.Lib.ValueIdx

set_option maxRecDepth 16384

noncomputable section

namespace Cert.KernelIdeal.Packed

open Cert.KernelIdeal Cert.KernelIdeal.Gen Cert.KernelIdeal.Run
open Idealize.ShloMosaic Idealize.ShloMosaic.TcCoe Idealize.SL.Sem Idealize.ShloMosaic.StableHlo Idealize.ShloMosaic.ValueIdx

theorem origin : (![0, 0] : Fin 2 → Nat) = fun _ => 0 := funext fun a => by fin_cases a <;> rfl

/-- The output block the body leaves is its pure term of the four blocks: one store of the whole block. -/
theorem headBlock_eq (a x : Vec Ideal S5000x128 .f32) (w : Vec Ideal S256x128 .f32) (b : Vec Ideal S1x128 .f32) :
    headBlock a x w b = k0_pay1 a x w b := by
  unfold headBlock
  rw [View.canon_unit_zero origin]
  simp only [View.ld_unit_zero (S := S5000x128) origin, View.ld_unit_zero (S := S256x128) origin, View.ld_unit_zero (S := S1x128) origin]

/-- Where each window's block sits at point `t`: the row windows at block row `t`, the weights and the bias at the origin. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ) (c : Dev nD)

/-- Row `r` of the aggregate's block at point `t` is row `5000·t + r` of the packed aggregate. -/
theorem aggregate_block (t : Fin cfg0.N) (r : Fin 5000) (k : Fin 128) (p : Fin 25000) (hp : p.val = 5000 * t.val + r.val) :
    blockAt m c 0 t (ix2 r k) = atEntry m c main_v16 (ix2 p k) := by
  obtain ⟨e0, e1, -⟩ := block_indices t
  have he : ((cfg0.win 0).blk t).view.emb (ix2 r k) = ix2 p k := by
    funext a; apply Fin.ext
    match a with
    | ⟨0, _⟩ => show win0_0.index t (0 : Fin 2) * 5000 + 1 * r.val = p.val; omega
    | ⟨1, _⟩ => show win0_0.index t (1 : Fin 2) * 128 + 1 * k.val = k.val; omega
  unfold blockAt
  rw [View.read_apply, he, cast_eq]

/-- The same for the packed features. -/
theorem features_block (t : Fin cfg0.N) (r : Fin 5000) (k : Fin 128) (p : Fin 25000) (hp : p.val = 5000 * t.val + r.val) :
    blockAt m c 1 t (ix2 r k) = atEntry m c main_v17 (ix2 p k) := by
  obtain ⟨-, -, e0, e1, -⟩ := block_indices t
  have he : ((cfg0.win 1).blk t).view.emb (ix2 r k) = ix2 p k := by
    funext a; apply Fin.ext
    match a with
    | ⟨0, _⟩ => show win0_1.index t (0 : Fin 2) * 5000 + 1 * r.val = p.val; omega
    | ⟨1, _⟩ => show win0_1.index t (1 : Fin 2) * 128 + 1 * k.val = k.val; omega
  unfold blockAt
  rw [View.read_apply, he, cast_eq]

/-- The weights' block is the whole stacked matrix at every point. -/
theorem weights_block (t : Fin cfg0.N) (k : Fin 256) (l : Fin 128) :
    blockAt m c 2 t (ix2 k l) = atEntry m c main_v25 (ix2 k l) := by
  obtain ⟨-, -, -, -, e0, e1, -⟩ := block_indices t
  have he : ((cfg0.win 2).blk t).view.emb (ix2 k l) = ix2 k l := by
    funext a; apply Fin.ext
    match a with
    | ⟨0, _⟩ => show win0_2.index t (0 : Fin 2) * 256 + 1 * k.val = k.val; omega
    | ⟨1, _⟩ => show win0_2.index t (1 : Fin 2) * 128 + 1 * l.val = l.val; omega
  unfold blockAt
  rw [View.read_apply, he, cast_eq]

/-- The bias's block is the whole row at every point. -/
theorem bias_block (t : Fin cfg0.N) (z : Fin 1) (l : Fin 128) :
    blockAt m c 3 t (ix2 z l) = atEntry m c main_v27 (ix2 z l) := by
  obtain ⟨-, -, -, -, -, -, e0, e1, -⟩ := block_indices t
  have he : ((cfg0.win 3).blk t).view.emb (ix2 z l) = ix2 z l := by
    funext a; apply Fin.ext
    match a with
    | ⟨0, _⟩ => show win0_3.index t (0 : Fin 2) * 1 + 1 * z.val = z.val; omega
    | ⟨1, _⟩ => show win0_3.index t (1 : Fin 2) * 128 + 1 * l.val = l.val; omega
  unfold blockAt
  rw [View.read_apply, he, cast_eq]

/-- Over any four blocks that are the restrictions, at rows `p0 … p0 + 4999`, of arrays `A`, `X` and the whole of `W`, `B`:
    entry (r, l) of the body's term is entry (p0 + r, l) of the packed head of the arrays. -/
theorem point_value (a x : Vec Ideal S5000x128 .f32) (w : Vec Ideal S256x128 .f32) (b : Vec Ideal S1x128 .f32)
    (A X : S25000x128.Idx → EReal) (W : S256x128.Idx → EReal) (B : S1x128.Idx → EReal) (p0 : ℕ) (hp0 : p0 + 5000 ≤ 25000)
    (ha : ∀ (r : Fin 5000) (k : Fin 128), a (ix2 r k) = A (ix2 ⟨p0 + r.val, by have := r.isLt; omega⟩ k))
    (hx : ∀ (r : Fin 5000) (k : Fin 128), x (ix2 r k) = X (ix2 ⟨p0 + r.val, by have := r.isLt; omega⟩ k))
    (hw : ∀ (k : Fin 256) (l : Fin 128), w (ix2 k l) = W (ix2 k l))
    (hb : ∀ (z : Fin 1) (l : Fin 128), b (ix2 z l) = B (ix2 z l)) (r : Fin 5000) (l : Fin 128) :
    k0_pay1 (F := Ideal) a x w b (ix2 r l) = packedHead A X W B (ix2 ⟨p0 + r.val, by have := r.isLt; omega⟩ l) := by
  rw [Head.pay_apply]
  show _ = packedAt A X W B ⟨p0 + r.val, _⟩ l
  unfold packedAt
  simp only [ha, hx, hw, hb]

/-- What point `t` writes back is block `t` of the packed result. -/
theorem written_back (t : Fin cfg0.N) :
    (dats m 0 c).flushed 4 t = ((cfg0.win 4).blk t).view.read (Elt Ideal)
      (packedHead (atEntry m c main_v16) (atEntry m c main_v17) (atEntry m c main_v25) (atEntry m c main_v27)) := by
  have h5 : t.val < 5 := lt_of_lt_of_eq t.isLt N_0
  obtain ⟨-, -, -, -, -, -, -, -, e0, e1⟩ := block_indices t
  have ha : ∀ (r : Fin 5000) (k : Fin 128), blockAt m c 0 t (ix2 r k)
      = atEntry m c main_v16 (ix2 ⟨5000 * t.val + r.val, by have := r.isLt; omega⟩ k) := fun r k => aggregate_block m c t r k _ rfl
  have hx : ∀ (r : Fin 5000) (k : Fin 128), blockAt m c 1 t (ix2 r k)
      = atEntry m c main_v17 (ix2 ⟨5000 * t.val + r.val, by have := r.isLt; omega⟩ k) := fun r k => features_block m c t r k _ rfl
  have hw : ∀ (k : Fin 256) (l : Fin 128), blockAt m c 2 t (ix2 k l) = atEntry m c main_v25 (ix2 k l) := weights_block m c t
  have hb : ∀ (z : Fin 1) (l : Fin 128), blockAt m c 3 t (ix2 z l) = atEntry m c main_v27 (ix2 z l) := bias_block m c t
  unfold Pipeline.Dat.flushed
  rw [after4, headBlock_eq]
  generalize atEntry m c main_v16 = A at ha ⊢
  generalize atEntry m c main_v17 = X at hx ⊢
  generalize atEntry m c main_v25 = W at hw ⊢
  generalize atEntry m c main_v27 = B at hb ⊢
  refine funext fun (y : S5000x128.Idx) => ?_
  obtain ⟨r, l, rfl⟩ : ∃ (r : Fin 5000) (l : Fin 128), y = ix2 r l := ⟨y 0, y 1, eq_ix2 y⟩
  have he : ((cfg0.win 4).blk t).view.emb (ix2 r l) = ix2 ⟨5000 * t.val + r.val, by have := r.isLt; omega⟩ l := by
    funext a; apply Fin.ext
    match a with
    | ⟨0, _⟩ => show win0_4.index t (0 : Fin 2) * 5000 + 1 * r.val = 5000 * t.val + r.val; omega
    | ⟨1, _⟩ => show win0_4.index t (1 : Fin 2) * 128 + 1 * l.val = l.val; omega
  rw [View.read_apply, cast_eq, he]
  exact point_value _ _ _ _ A X W B (5000 * t.val) (by omega) ha hx hw hb r l

/-- An index is in point `t`'s block iff each coordinate is in the block's range. -/
theorem mem_block (t : Fin cfg0.N) (i : S25000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v28).slice (win0_4.rect t)).set ↔ _
  rw [View.set_slice_whole, Rect.mem_set_unit]
  exact Iff.rfl

/-- Row `p` of the packed result is written back at point `p / 5000`. -/
theorem covered (i : S25000x128.Idx) : ∃ t : Fin cfg0.N, (cfg0.win 4).flush t = true ∧ i ∈ ((cfg0.win 4).blk t).view.set := by
  have hi0 : (i 0).val < 25000 := (i 0).isLt
  have hi1 : (i 1).val < 128 := (i 1).isLt
  have ht : (i 0).val / 5000 < cfg0.N := by rw [show cfg0.N = 5 from N_0]; omega
  obtain ⟨-, -, -, -, -, -, -, -, e0, e1⟩ := block_indices ⟨(i 0).val / 5000, ht⟩
  refine ⟨⟨(i 0).val / 5000, ht⟩, flush0_4 _, ?_⟩
  rw [mem_block]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e1]; omega

/-- The packed result array after the run. -/
theorem packed_result : (dats m 0 c).arrAt 4 cfg0.N
    = packedHead (atEntry m c main_v16) (atEntry m c main_v17) (atEntry m c main_v25) (atEntry m c main_v27) :=
  (dats m 0 c).arrAt_eq_of_cover 4 _ (fun t _ => written_back m c t) covered

/-- The result after the host line that follows the region: the packed result reshaped to 50000 × 64. -/
theorem result_at_exit : (Pipeline.afterTail₀ cfgs (dats m) 0 (entry m) [hostOps1] c main_v29 : S50000x64.Idx → EReal)
    = shapeCast S50000x64 (packedHead (atEntry m c main_v16) (atEntry m c main_v17) (atEntry m c main_v25) (atEntry m c main_v27)) Gen.shapeCasts_S25000x128_S50000x64 := by
  unfold Pipeline.afterTail₀
  show StableHlo.after hostOps1 _ (Proc.devRef .tc main_v29) = _
  after_results
  rw [(Pipeline.withArrays_arr spec0 launch0.win.arr_inj c _ _ 4).trans (packed_result m c)]
  rfl

end Cert.KernelIdeal.Packed

end
-- ==== Proof.GraphConvLayer.lean ====
/-
  The graph-convolution layer, entry by entry.

  For an aggregate `agg` and features `x` (50000 nodes × 64 features), weights `wrel`, `wroot` (64 × 64, indexed
  (output, input)) and a bias `b`, entry (n, o) of the layer is
  `max ((∑_j agg(n, j) · wrel(o, j) + b(o)) + ∑_j x(n, j) · wroot(o, j), 0)`,
  read on the extended reals.
-/
import Idealize.ShloMosaic.Lib.ValueIdx
import Idealize.ShloMosaic.PureOps.Ideal.Laws

noncomputable section

namespace Cert.GraphConv

open Idealize.ShloMosaic Idealize.ShloMosaic.ValueIdx

/-- Entry (n, o) of the layer. -/
def layerAt (agg x : (⟨2, ![50000, 64]⟩ : Shape).Idx → EReal) (wrel wroot : (⟨2, ![64, 64]⟩ : Shape).Idx → EReal)
    (b : (⟨1, ![64]⟩ : Shape).Idx → EReal) (n : Fin 50000) (o : Fin 64) : EReal :=
  max (((∑ j : Fin 64, agg (ix2 n j) * wrel (ix2 o j)) + b (ix1 o)) + ∑ j : Fin 64, x (ix2 n j) * wroot (ix2 o j))
    (Ideal.ofBits .f32 0x00000000#32)

/-- The layer as an array. -/
def layer (agg x : (⟨2, ![50000, 64]⟩ : Shape).Idx → EReal) (wrel wroot : (⟨2, ![64, 64]⟩ : Shape).Idx → EReal)
    (b : (⟨1, ![64]⟩ : Shape).Idx → EReal) : (⟨2, ![50000, 64]⟩ : Shape).Idx → EReal :=
  fun i => layerAt agg x wrel wroot b ⟨(i 0).val, (i 0).isLt⟩ ⟨(i 1).val, (i 1).isLt⟩

end Cert.GraphConv

end
-- ==== Proof.Bridge.lean ====
/-
  The packed head of the packed arrays, reshaped, is the graph-convolution layer.

  Node `n = 2p + h` (`h` = 0 or 1) lives in packed row `p`, lanes `64h … 64h + 63`. The stacked weight matrix has, in
  lanes `64h + o`, the rows `W_rel(o, ·)` in run `h` of the aggregate's two runs and zeros in the other, and the rows
  `W_root(o, ·)` in run `h` of the features' two runs and zeros in the other. So of the four runs of the 256-term sum two
  are sums of products with zero, which vanish (`x · 0 = 0` for every extended real `x`), and the other two are the
  layer's two sums over node `n`'s own row. What remains is a regrouping of three summands.
-/
import proofs.«107670_j86973087744670_2_alg».proof.Proof.EntryArrays
import proofs.«107670_j86973087744670_2_alg».proof.Proof.PackedHead
import proofs.«107670_j86973087744670_2_alg».proof.Proof.GraphConvLayer
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Entry Cert.KernelIdeal.Packed
open Idealize.ShloMosaic Idealize.ShloMosaic.ValueIdx

/-! ## The layout operations at an entry -/

theorem transposed_apply (W : S64x64.Idx → EReal) (j o : Fin 64) : transposed W (ix2 j o) = W (ix2 o j) :=
  transpose_apply [1, 0] W Gen.transposes_S64x64_S64x64_1_0 (ix2 j o) (ix2 o j) (fun b => by
    match b with | ⟨0, _⟩ => rfl | ⟨1, _⟩ => rfl)

theorem zeros_apply (i : S64x64.Idx) : zeros i = 0 := by
  unfold zeros
  rw [broadcastInDim_apply _ Gen.bcast_S_S64x64 _ i (fun a => a.elim0) (fun a => a.elim0)]
  exact Ideal.ofBits_zero_f32

theorem beside_lo (P Q : S64x64.Idx → EReal) (j o : Fin 64) : beside P Q (ix2 j ⟨o.val, by omega⟩) = P (ix2 j o) :=
  concatenate_pair_apply_left (1 : Fin S64x128.rank) P Q Gen.concatenates_S64x64_S64x64_S64x128_d1 (ix2 j ⟨o.val, by omega⟩) rfl (ix2 j o)
    (fun b => by match b with | ⟨0, _⟩ => rfl | ⟨1, _⟩ => rfl)

theorem beside_hi (P Q : S64x64.Idx → EReal) (j o : Fin 64) : beside P Q (ix2 j ⟨64 + o.val, by omega⟩) = Q (ix2 j o) :=
  concatenate_pair_apply_right (1 : Fin S64x128.rank) P Q Gen.concatenates_S64x64_S64x64_S64x128_d1 (ix2 j ⟨64 + o.val, by omega⟩) rfl rfl (ix2 j o)
    (fun b hb => by match b with | ⟨0, _⟩ => rfl | ⟨1, _⟩ => exact absurd rfl hb)
    (by show o.val + 64 = 64 + o.val; omega)

/-- Row `64·q + j` of the stacked weights is row `j` of piece `q`. -/
theorem stacked_piece (Wrel Wroot : S64x64.Idx → EReal) (q : Fin 4) (P : S64x128.Idx → EReal)
    (hP : [(⟨S64x128, beside (transposed Wrel) zeros⟩ : (s : Shape) × (s.Idx → EReal)), ⟨S64x128, beside zeros (transposed Wrel)⟩,
      ⟨S64x128, beside (transposed Wroot) zeros⟩, ⟨S64x128, beside zeros (transposed Wroot)⟩][q.val]'(by have := q.isLt; simp) = ⟨S64x128, P⟩)
    (j : Fin 64) (l : Fin 128) (k : Fin 256) (hk : k.val = 64 * q.val + j.val) :
    stacked Wrel Wroot (ix2 k l) = P (ix2 j l) := by
  unfold stacked
  refine concatenate_apply_piece (0 : Fin S256x128.rank)
    [(⟨S64x128, beside (transposed Wrel) zeros⟩ : (s : Shape) × (s.Idx → EReal)), ⟨S64x128, beside zeros (transposed Wrel)⟩,
      ⟨S64x128, beside (transposed Wroot) zeros⟩, ⟨S64x128, beside zeros (transposed Wroot)⟩]
    Gen.concatenates_S64x128_S64x128_S64x128_S64x128_S256x128_d0 (ix2 k l)
    q.val (by have := q.isLt; simp) S64x128 P hP rfl (64 * q.val) ?_ (ix2 j l) (fun b hb => by
      match b with | ⟨0, _⟩ => exact absurd rfl hb | ⟨1, _⟩ => rfl) (by show 64 * q.val + j.val = k.val; omega)
  fin_cases q <;> rfl

theorem doubled_lo (b : S64.Idx → EReal) (o : Fin 64) : doubled b (ix2 0 ⟨o.val, by omega⟩) = b (ix1 o) := by
  unfold doubled
  rw [shapeCast_apply _ Gen.shapeCasts_S128_S1x128 (ix2 0 ⟨o.val, by omega⟩) (ix1 ⟨o.val, by omega⟩)
    (by rw [Shape.rowMajor_val_one, Shape.rowMajor_val_two]; show o.val = 0 * 128 + o.val; omega)]
  exact concatenate_pair_apply_left (0 : Fin S128.rank) b b Gen.concatenates_S64_S64_S128_d0 (ix1 ⟨o.val, by omega⟩) rfl (ix1 o)
    (fun a => by match a with | ⟨0, _⟩ => rfl)

theorem doubled_hi (b : S64.Idx → EReal) (o : Fin 64) : doubled b (ix2 0 ⟨64 + o.val, by omega⟩) = b (ix1 o) := by
  unfold doubled
  rw [shapeCast_apply _ Gen.shapeCasts_S128_S1x128 (ix2 0 ⟨64 + o.val, by omega⟩) (ix1 ⟨64 + o.val, by omega⟩)
    (by rw [Shape.rowMajor_val_one, Shape.rowMajor_val_two]; show 64 + o.val = 0 * 128 + (64 + o.val); omega)]
  exact concatenate_pair_apply_right (0 : Fin S128.rank) b b Gen.concatenates_S64_S64_S128_d0 (ix1 ⟨64 + o.val, by omega⟩) rfl rfl (ix1 o)
    (fun a ha => by match a with | ⟨0, _⟩ => exact absurd rfl ha)
    (by show o.val + 64 = 64 + o.val; omega)

/-- Lanes `0 … 63` of packed row `p` are row `2p` of the array; -/
theorem packed_lo (Y : S50000x64.Idx → EReal) (p : Fin 25000) (j : Fin 64) (n : Fin 50000) (hn : n.val = 2 * p.val) :
    packed Y (ix2 p ⟨j.val, by omega⟩) = Y (ix2 n j) :=
  shapeCast_apply Y Gen.shapeCasts_S50000x64_S25000x128 (ix2 p ⟨j.val, by omega⟩) (ix2 n j)
    (by rw [Shape.rowMajor_val_two, Shape.rowMajor_val_two]; show n.val * 64 + j.val = p.val * 128 + j.val; omega)

/-- lanes `64 … 127` are row `2p + 1`. -/
theorem packed_hi (Y : S50000x64.Idx → EReal) (p : Fin 25000) (j : Fin 64) (n : Fin 50000) (hn : n.val = 2 * p.val + 1) :
    packed Y (ix2 p ⟨64 + j.val, by omega⟩) = Y (ix2 n j) :=
  shapeCast_apply Y Gen.shapeCasts_S50000x64_S25000x128 (ix2 p ⟨64 + j.val, by omega⟩) (ix2 n j)
    (by rw [Shape.rowMajor_val_two, Shape.rowMajor_val_two]; show n.val * 64 + j.val = p.val * 128 + (64 + j.val); omega)

/-! ## The stacked weights entry by entry: run `q` of the rows, low or high lanes -/

section Weights
variable (Wrel Wroot : S64x64.Idx → EReal) (j o : Fin 64)

theorem rel_lo : stacked Wrel Wroot (ix2 ⟨j.val, by omega⟩ ⟨o.val, by omega⟩) = Wrel (ix2 o j) :=
  (stacked_piece Wrel Wroot 0 _ rfl j ⟨o.val, by omega⟩ ⟨j.val, by omega⟩ (by show j.val = 64 * 0 + j.val; omega)).trans
    ((beside_lo _ _ j o).trans (transposed_apply _ j o))
theorem rel_lo_hi : stacked Wrel Wroot (ix2 ⟨j.val, by omega⟩ ⟨64 + o.val, by omega⟩) = 0 :=
  (stacked_piece Wrel Wroot 0 _ rfl j ⟨64 + o.val, by omega⟩ ⟨j.val, by omega⟩ (by show j.val = 64 * 0 + j.val; omega)).trans
    ((beside_hi _ _ j o).trans (zeros_apply _))
theorem rel_hi_lo : stacked Wrel Wroot (ix2 ⟨64 + j.val, by omega⟩ ⟨o.val, by omega⟩) = 0 :=
  (stacked_piece Wrel Wroot 1 _ rfl j ⟨o.val, by omega⟩ ⟨64 + j.val, by omega⟩ (by show 64 + j.val = 64 * 1 + j.val; omega)).trans
    ((beside_lo _ _ j o).trans (zeros_apply _))
theorem rel_hi : stacked Wrel Wroot (ix2 ⟨64 + j.val, by omega⟩ ⟨64 + o.val, by omega⟩) = Wrel (ix2 o j) :=
  (stacked_piece Wrel Wroot 1 _ rfl j ⟨64 + o.val, by omega⟩ ⟨64 + j.val, by omega⟩ (by show 64 + j.val = 64 * 1 + j.val; omega)).trans
    ((beside_hi _ _ j o).trans (transposed_apply _ j o))
theorem root_lo : stacked Wrel Wroot (ix2 ⟨128 + j.val, by omega⟩ ⟨o.val, by omega⟩) = Wroot (ix2 o j) :=
  (stacked_piece Wrel Wroot 2 _ rfl j ⟨o.val, by omega⟩ ⟨128 + j.val, by omega⟩ (by show 128 + j.val = 64 * 2 + j.val; omega)).trans
    ((beside_lo _ _ j o).trans (transposed_apply _ j o))
theorem root_lo_hi : stacked Wrel Wroot (ix2 ⟨128 + j.val, by omega⟩ ⟨64 + o.val, by omega⟩) = 0 :=
  (stacked_piece Wrel Wroot 2 _ rfl j ⟨64 + o.val, by omega⟩ ⟨128 + j.val, by omega⟩ (by show 128 + j.val = 64 * 2 + j.val; omega)).trans
    ((beside_hi _ _ j o).trans (zeros_apply _))
theorem root_hi_lo : stacked Wrel Wroot (ix2 ⟨192 + j.val, by omega⟩ ⟨o.val, by omega⟩) = 0 :=
  (stacked_piece Wrel Wroot 3 _ rfl j ⟨o.val, by omega⟩ ⟨192 + j.val, by omega⟩ (by show 192 + j.val = 64 * 3 + j.val; omega)).trans
    ((beside_lo _ _ j o).trans (zeros_apply _))
theorem root_hi : stacked Wrel Wroot (ix2 ⟨192 + j.val, by omega⟩ ⟨64 + o.val, by omega⟩) = Wroot (ix2 o j) :=
  (stacked_piece Wrel Wroot 3 _ rfl j ⟨64 + o.val, by omega⟩ ⟨192 + j.val, by omega⟩ (by show 192 + j.val = 64 * 3 + j.val; omega)).trans
    ((beside_hi _ _ j o).trans (transposed_apply _ j o))

end Weights

/-! ## The equation -/

/-- The packed head of the packed aggregate, the packed features, the stacked weights and the doubled bias, reshaped to
    50000 × 64, is the layer of the aggregate, the features, the two weight matrices and the bias. -/
theorem head_is_layer (agg x : S50000x64.Idx → EReal) (Wrel Wroot : S64x64.Idx → EReal) (b : S64.Idx → EReal) :
    shapeCast S50000x64 (packedHead (packed agg) (packed x) (stacked Wrel Wroot) (doubled b)) Gen.shapeCasts_S25000x128_S50000x64
      = Cert.GraphConv.layer agg x Wrel Wroot b := by
  funext i
  obtain ⟨n, o, rfl⟩ : ∃ (n : Fin 50000) (o : Fin 64), i = ix2 n o := ⟨i 0, i 1, eq_ix2 i⟩
  have hn : n.val < 50000 := n.isLt
  have ho : o.val < 64 := o.isLt
  show _ = Cert.GraphConv.layerAt agg x Wrel Wroot b n o
  have hp : n.val / 2 < 25000 := by omega
  rcases Nat.mod_two_eq_zero_or_one n.val with h | h
  · -- node `n = 2p`: lanes `o` of packed row `p`; the other node of the pair is `n + 1`
    have hn1 : n.val + 1 < 50000 := by omega
    rw [shapeCast_apply _ Gen.shapeCasts_S25000x128_S50000x64 (ix2 n o) (ix2 ⟨n.val / 2, hp⟩ ⟨o.val, by omega⟩)
      (by rw [Shape.rowMajor_val_two, Shape.rowMajor_val_two]; show n.val / 2 * 128 + o.val = n.val * 64 + o.val; omega)]
    show packedAt _ _ _ _ ⟨n.val / 2, hp⟩ ⟨o.val, _⟩ = _
    unfold packedAt Cert.GraphConv.layerAt
    simp only [fun j => packed_lo agg ⟨n.val / 2, hp⟩ j n (by show n.val = 2 * (n.val / 2); omega),
      fun j => packed_hi agg ⟨n.val / 2, hp⟩ j ⟨n.val + 1, hn1⟩ (by show n.val + 1 = 2 * (n.val / 2) + 1; omega),
      fun j => packed_lo x ⟨n.val / 2, hp⟩ j n (by show n.val = 2 * (n.val / 2); omega),
      fun j => packed_hi x ⟨n.val / 2, hp⟩ j ⟨n.val + 1, hn1⟩ (by show n.val + 1 = 2 * (n.val / 2) + 1; omega),
      rel_lo, rel_hi_lo, root_lo, root_hi_lo, doubled_lo, mul_zero, Finset.sum_const_zero, add_zero]
    rw [add_right_comm]
  · -- node `n = 2p + 1`: lanes `64 + o` of packed row `p`; the other node of the pair is `n - 1`
    have hn1 : n.val - 1 < 50000 := by omega
    rw [shapeCast_apply _ Gen.shapeCasts_S25000x128_S50000x64 (ix2 n o) (ix2 ⟨n.val / 2, hp⟩ ⟨64 + o.val, by omega⟩)
      (by rw [Shape.rowMajor_val_two, Shape.rowMajor_val_two]; show n.val / 2 * 128 + (64 + o.val) = n.val * 64 + o.val; omega)]
    show packedAt _ _ _ _ ⟨n.val / 2, hp⟩ ⟨64 + o.val, _⟩ = _
    unfold packedAt Cert.GraphConv.layerAt
    simp only [fun j => packed_lo agg ⟨n.val / 2, hp⟩ j ⟨n.val - 1, hn1⟩ (by show n.val - 1 = 2 * (n.val / 2); omega),
      fun j => packed_hi agg ⟨n.val / 2, hp⟩ j n (by show n.val = 2 * (n.val / 2) + 1; omega),
      fun j => packed_lo x ⟨n.val / 2, hp⟩ j ⟨n.val - 1, hn1⟩ (by show n.val - 1 = 2 * (n.val / 2); omega),
      fun j => packed_hi x ⟨n.val / 2, hp⟩ j n (by show n.val = 2 * (n.val / 2) + 1; omega),
      rel_lo_hi, rel_hi, root_lo_hi, root_hi, doubled_hi, mul_zero, Finset.sum_const_zero, add_zero, zero_add]
    rw [add_right_comm]

end Cert.KernelIdeal.Bridge

end
-- ==== Proof.KernelValue.lean ====
/-
  The idealized kernel's run, with its result named: the graph-convolution layer of the aggregate, the features, the two
  weight matrices and the bias — the aggregate being the scatter-add of the gathered feature rows, the same array the
  reference computes.
-/
import proofs.«107670_j86973087744670_2_alg».proof.Proof.EntryArrays
import proofs.«107670_j86973087744670_2_alg».proof.Proof.PackedResult
import proofs.«107670_j86973087744670_2_alg».proof.Proof.Bridge

set_option maxRecDepth 16384

noncomputable section

namespace Cert.KernelIdeal.Result

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (ρ : Dev nD → PrngReg)

/-- The layer of core `c`'s argument arrays. -/
def layerOf (c : Dev nD) : S50000x64.Idx → EReal :=
  Cert.GraphConv.layer
    (Cert.ReferenceIdeal.Read.val_main_v13 (F := Ideal) (m ((c : Thread nD τ).loc main_arg0)) (m ((c : Thread nD τ).loc main_arg4)))
    (m ((c : Thread nD τ).loc main_arg0)) (m ((c : Thread nD τ).loc main_arg1)) (m ((c : Thread nD τ).loc main_arg3))
    (m ((c : Thread nD τ).loc main_arg2))

/-- What the result buffer holds after the host line that follows the region. -/
theorem result_is_layer (c : Dev nD) :
    (Pipeline.afterTail₀ cfgs (dats m) 0 (entry m) [hostOps1] c main_v29 : S50000x64.Idx → EReal) = layerOf m c := by
  rw [Packed.result_at_exit, Entry.aggregate_at_entry, Entry.features_at_entry, Entry.weights_at_entry, Entry.bias_at_entry]
  exact Bridge.head_is_layer _ _ _ _ _

/-- Every weakly fair execution terminates without a fault, with the result at the layer and the arguments unchanged. -/
theorem run : θ_run defs (onTc (τ := τ) (main (F := Ideal))) ⟨m, fun _ => 0, ρ⟩ (fun r => ∀ c : Dev nD,
      r.2.mem ((c.tc : Thread nD τ).loc main_v29) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v29 (Pipeline.mem_restRefs_of main_v29 (by decide) (by decide))).trans (result_is_layer m c),
     ((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c)⟩) (run_main m ρ)

end Cert.KernelIdeal.Result

end
-- ==== Proof.ReferenceValue.lean ====
/-
  The reference's result is the graph-convolution layer of its own aggregate.

  Read one operation at a time, entry (n, o) of the reference's result is
  `max ((∑_k agg(n, k) · W_relᵀ(k, o) + b(o)) + ∑_k x(n, k) · W_rootᵀ(k, o), 0)` where `agg` is its scatter-add of the
  gathered feature rows; a transposed weight at (k, o) is the weight at (o, k).
-/
import proofs.«107670_j86973087744670_2_alg».proof.Proof.Gen.ReferenceIdeal.Read
import proofs.«107670_j86973087744670_2_alg».proof.Proof.GraphConvLayer

noncomputable section

namespace Cert.ReferenceIdeal.RefValue

open Cert.ReferenceIdeal Cert.ReferenceIdeal.Gen Cert.ReferenceIdeal.Read
open Idealize.ShloMosaic Idealize.ShloMosaic.ValueIdx

theorem reference_is_layer (x0 : (⟨S50000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S2x800000, .i32⟩ : BufTy).Contents (Elt Ideal)) :
    val_main_v22 (F := Ideal) x0 x1 x2 x3 x4 = Cert.GraphConv.layer (val_main_v13 (F := Ideal) x0 x4) x0 x1 x3 x2 := by
  funext i
  obtain ⟨n, o, rfl⟩ : ∃ (n : Fin 50000) (o : Fin 64), i = ix2 n o := ⟨i 0, i 1, eq_ix2 i⟩
  rw [val_main_v22_apply, val_main_v21_apply, val_main_v18_apply, val_main_v15_apply, val_main_v20_apply,
    val_main_v17_apply, val_main_v16_apply, val_main_call0_v0_apply, val_main_call0_cst_apply]
  simp only [val_main_v14_apply, val_main_v19_apply]
  have e1 : ∀ k : Fin 64, lidx_main_v15 (ix2 n o) k = ix2 n k := fun k => funext fun a => Fin.ext (by
    match a with | ⟨0, _⟩ => rfl | ⟨1, _⟩ => rfl)
  have e2 : ∀ k : Fin 64, idx_main_v14 (ridx_main_v15 (ix2 n o) k) = ix2 o k := fun k => funext fun a => Fin.ext (by
    match a with | ⟨0, _⟩ => rfl | ⟨1, _⟩ => rfl)
  have e3 : idx_main_v16 (idx_main_v17 (ix2 n o)) = ix1 o := funext fun a => Fin.ext (by
    match a with | ⟨0, _⟩ => rfl)
  have e4 : ∀ k : Fin 64, lidx_main_v20 (ix2 n o) k = ix2 n k := fun k => funext fun a => Fin.ext (by
    match a with | ⟨0, _⟩ => rfl | ⟨1, _⟩ => rfl)
  have e5 : ∀ k : Fin 64, idx_main_v19 (ridx_main_v20 (ix2 n o) k) = ix2 o k := fun k => funext fun a => Fin.ext (by
    match a with | ⟨0, _⟩ => rfl | ⟨1, _⟩ => rfl)
  simp only [e1, e2, e3, e4, e5, Ideal.addf_def, Ideal.maximumf_def, Ideal.ofBits_def]
  rfl

end Cert.ReferenceIdeal.RefValue

end
-- ==== Proof.lean ====
/-
  A graph-convolution layer computed two ways, equal on the extended reals.

  The kernel's program aggregates the neighbours' features on the host (a gather of feature rows along the edges'
  sources and a scatter-add into the edges' destinations), packs two nodes per row of 128 lanes, and computes
  `max ([agg | x] · W + b, 0)` in one pipelined call over five blocks of 5000 packed rows, `W` the 256 × 128 matrix that
  stacks `[W_relᵀ | 0]`, `[0 | W_relᵀ]`, `[W_rootᵀ | 0]`, `[0 | W_rootᵀ]`. The reference computes
  `max ((agg · W_relᵀ + b) + x · W_rootᵀ, 0)` with the same aggregate.

  * Both kernel programs (word level and idealized) run to the end, fault nowhere and leave the arguments unchanged: the
    body reads whole blocks and stores one whole block, and nothing else touches memory.
  * The idealization rewrote nothing, so there is nothing to preserve.
  * On the extended reals the changes of float format are the identity, so the two aggregates are one array; entry (n, o)
    of the kernel's result is a 256-term sum that splits into four runs of 64, two of them products with zero, the other
    two the reference's two sums over node n's row; what remains is a regrouping of a three-term sum. No finiteness of
    the inputs is used: `x · 0 = 0` and the commutative-monoid laws of `+` hold for every extended real.
-/
import proofs.«107670_j86973087744670_2_alg».proof.Defs
import proofs.«107670_j86973087744670_2_alg».proof.Proof.Gen.Kernel
import proofs.«107670_j86973087744670_2_alg».proof.Proof.Gen.KernelIdeal
import proofs.«107670_j86973087744670_2_alg».proof.Proof.Gen.ReferenceIdeal
import proofs.«107670_j86973087744670_2_alg».proof.Proof.Gen.Pre_finite_inputs
import proofs.«107670_j86973087744670_2_alg».proof.Proof.Gen.ReferenceIdeal.Run
import proofs.«107670_j86973087744670_2_alg».proof.Proof.RunKernel
import proofs.«107670_j86973087744670_2_alg».proof.Proof.KernelValue
import proofs.«107670_j86973087744670_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Run.frame m ρ

theorem frame_kernel_ideal : @Cert.frame_KernelIdeal Cert.KernelIdeal.Gen.facts Cert.Pre_finite_inputs.Gen.facts :=
  fun m ρ _ => Cert.KernelIdeal.Run.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the layer of the (agreeing) arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Result.layerOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _ _).trans ((Cert.ReferenceIdeal.RefValue.reference_is_layer _ _ _ _ _).trans ?_)
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
